-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel

variable [Facts]

def fn {F : FTy → Type} [FloatOps F] (main_arg0 : FVec F S64x512x1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  main_v3
-- ==== Kernel.lean ====
abbrev S64x512x1024 : Shape := ⟨3, ![64, 512, 1024]⟩
abbrev S64x512x512 : Shape := ⟨3, ![64, 512, 512]⟩
abbrev S2x512x1024 : Shape := ⟨3, ![2, 512, 1024]⟩
abbrev S2x512x512 : Shape := ⟨3, ![2, 512, 512]⟩
abbrev S2x512 : Shape := ⟨2, ![2, 512]⟩
abbrev S2x512x1 : Shape := ⟨3, ![2, 512, 1]⟩
abbrev S2x1x512 : Shape := ⟨3, ![2, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S64x512x1024, .f32⟩
  | .hbm, ⟨1, _⟩ => ⟨S64x512x512, .f32⟩
  | .local _ .vmem, ⟨0, _⟩ => ⟨S2x512x1024, .f32⟩
  | .local _ .vmem, ⟨1, _⟩ => ⟨S2x512x1024, .f32⟩
  | .local _ .vmem, ⟨2, _⟩ => ⟨S2x512x512, .f32⟩
  | .local _ .vmem, ⟨3, _⟩ => ⟨S2x512x512, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x512x1024_S2x512x1024_0_0_0 : ∀ a, (![0, 0, 0] : Fin 3 → Nat) a + S2x512x1024.size a ≤ S2x512x1024.size a
  h_S2x512x1024 : 0 < S2x512x1024.numel
  reduces_S2x512x1024_S2x512 : S2x512x1024.Reduces [2] S2x512
  shapeCasts_S2x512_S2x512x1 : S2x512.ShapeCasts S2x512x1
  bitsLt_bf16_f32 : FTy.bits .bf16 < FTy.bits .f32
  transposes_S2x512x1_p0_2_1_S2x1x512 : S2x512x1.Transposes [0, 2, 1] S2x1x512
  broadcasts_S2x512x1_S2x512x512 : S2x512x1.Broadcasts S2x512x512
  broadcasts_S2x1x512_S2x512x512 : S2x1x512.Broadcasts S2x512x512
  inb_S2x512x512_S2x512x512_0_0_0 : ∀ a, (![0, 0, 0] : Fin 3 → Nat) a + S2x512x512.size a ≤ S2x512x512.size a
  h_S2x512x512 : 0 < S2x512x512.numel
  dot_S2x512x1024_S2x512x1024_S2x512x512_2_2_1_1_0_0_wf : DotDims.WF S2x512x1024 S2x512x1024 S2x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S64x512x1024.size a
  hwx0_0 : ∀ i : grid0.Coords, EltTy.bits .f32 = 32 ∨ (Rect.block (s := S64x512x1024) S2x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S64x512x512.size a
  hwx0_1 : ∀ i : grid0.Coords, EltTy.bits .f32 = 32 ∨ (Rect.block (s := S64x512x512) S2x512x512.size (cc0_transform_1 i) (hinb0_1 i)).WholeWords (EltTy.packing .f32)

variable [Facts₀]

def dot_S2x512x1024_S2x512x1024_S2x512x512_2_2_1_1_0_0 : DotDims S2x512x1024 S2x512x1024 S2x512x512 where
  lhsContracting := [2]
  rhsContracting := [2]
  lhsNonContracting := [1]
  rhsNonContracting := [1]
  lhsBatch := [0]
  rhsBatch := [0]
  wf := dot_S2x512x1024_S2x512x1024_S2x512x512_2_2_1_1_0_0_wf

abbrev win0_0 : Pipeline.Window sig grid0 :=
  Pipeline.Window.ofSpec (Memref.whole main_arg0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S_ : Shape := ⟨0, ![]⟩
abbrev S64x512 : Shape := ⟨2, ![64, 512]⟩
abbrev S64x512x512 : Shape := ⟨3, ![64, 512, 512]⟩
abbrev S64x512x1 : Shape := ⟨3, ![64, 512, 1]⟩
abbrev S64x1x512 : Shape := ⟨3, ![64, 1, 512]⟩

abbrev nBuf : Space → Nat
  | .hbm => 18
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S_, .f32⟩
  | .hbm, ⟨3, _⟩ => ⟨S64x512, .f32⟩
  | .hbm, ⟨4, _⟩ => ⟨S64x512x512, .f32⟩
  | .hbm, ⟨5, _⟩ => ⟨S64x512x1, .f32⟩
  | .hbm, ⟨6, _⟩ => ⟨S64x1x512, .f32⟩
  | .hbm, ⟨7, _⟩ => ⟨S64x512x512, .f32⟩
  | .hbm, ⟨8, _⟩ => ⟨S64x512x512, .f32⟩
  | .hbm, ⟨9, _⟩ => ⟨S64x512x512, .f32⟩
  | .hbm, ⟨10, _⟩ => ⟨S_, .f32⟩
  | .hbm, ⟨11, _⟩ => ⟨S64x512x512, .f32⟩
  | .hbm, ⟨12, _⟩ => ⟨S64x512x512, .f32⟩
  | .hbm, ⟨13, _⟩ => ⟨S64x512x512, .f32⟩
  | .hbm, ⟨14, _⟩ => ⟨S_, .f32⟩
  | .hbm, ⟨15, _⟩ => ⟨S64x512x512, .f32⟩
  | .hbm, ⟨16, _⟩ => ⟨S64x512x512, .f32⟩
  | .hbm, ⟨17, _⟩ => ⟨S64x512x512, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  reducesTo_S64x512x1024_S64x512_d2 : S64x512x1024.ReducesTo [2] S64x512
  h_S_ : 0 < S_.numel
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  dot_S64x512x1024_S64x512x1024_S64x512x512_2_2_1_1_0_0_wf : DotDims.WF S64x512x1024 S64x512x1024 S64x512x512 [2] [2] [1] [1] [0] [0]

variable [Facts₀]

def dot_S64x512x1024_S64x512x1024_S64x512x512_2_2_1_1_0_0 : DotDims S64x512x1024 S64x512x1024 S64x512x512 where
  lhsContracting := [2]
  rhsContracting := [2]
  lhsNonContracting := [1]
  rhsNonContracting := [1]
  lhsBatch := [0]
  rhsBatch := [0]
  wf := dot_S64x512x1024_S64x512x1024_S64x512x512_2_2_1_1_0_0_wf

class Facts : Prop extends Facts₀ where

variable [Facts]
-- ==== Proof.LibRealSums.lean ====
/-
  Finite sums of real numbers, read on the extended reals.

  Coercion from the reals to the extended reals commutes with a finite sum (`coe_sum_real`: by induction on the index
  set, the coercion being additive), and a finite sum of products of extended reals each of which is a real number is the
  coercion of the real sum of the real products (`sum_mul_of_real`).  With these a computation on extended reals whose
  inputs are all finite can be carried out in the reals, where a factor moves across a sum and a nonzero divisor cancels.
-/
import Mathlib.Data.EReal.Operations
import Mathlib.Algebra.BigOperators.Fin

open scoped BigOperators

namespace RealSums

/-- A finite sum of real numbers, read on the extended reals, is the sum of the readings. -/
theorem coe_sum_real {ι : Type*} (s : Finset ι) (f : ι → ℝ) :
    ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A finite sum of products of entries that are real numbers is the real sum of the real products. -/
theorem sum_mul_of_real {ι : Type*} [Fintype ι] (A B : ι → EReal) (a b : ι → ℝ)
    (hA : ∀ i, A i = (a i : EReal)) (hB : ∀ i, B i = (b i : EReal)) :
    ∑ i, A i * B i = ((∑ i, a i * b i : ℝ) : EReal) := by
  rw [coe_sum_real]
  exact Finset.sum_congr rfl (fun i _ => by rw [hA, hB, EReal.coe_mul])

end RealSums
-- ==== Proof.PairDist.lean ====
/-
  Squared distances between the rows of a matrix, from its Gram matrix.

  For a stack `x` of `nb` matrices with `m` rows and `n` columns, write `sq b i = ∑ₖ x[b,i,k]²` for the squared
  norm of row `i` of matrix `b` and `gram b i j = ∑ₖ x[b,i,k] · x[b,j,k]` for the inner product of rows `i` and `j`.
  Then `dist b i j = (sq b i + sq b j) - 2 · gram b i j` and the quantity of interest is `exp (s · dist b i j)`
  for a fixed scale `s`.  One way of computing it first replaces `dist` by `max dist 0`; the other does not.

  Over the reals `dist b i j = ∑ₖ (x[b,i,k] - x[b,j,k])²` (expand the square under the sum), which is never negative, so
  the maximum with zero changes nothing.  On the extended reals this needs every entry of `x` to be a real number:
  with an infinite entry `sq + sq - 2·gram` can be `∞ - ∞`.  So the two ways agree on stacks of real numbers
  (`clamp_idle`).
-/
import Idealize.ShloMosaic.PureOps.Ideal
import Idealize.ShloMosaic.PureOps.Ideal.Laws
import Idealize.ShloMosaic.Lib.ValueIdx
import proofs.«113839_j2396591751300_2_alg».proof.Proof.LibRealSums

noncomputable section

namespace PairDist

open Idealize.ShloMosaic Idealize.ShloMosaic.ValueIdx
open scoped BigOperators

/-- A stack of `nb` matrices of `m` rows and `n` columns over the extended reals. -/
abbrev Stack (nb m n : ℕ) := (⟨3, ![nb, m, n]⟩ : Shape).Idx → EReal

variable {nb m n : ℕ}

/-- The squared norm of row `i` of matrix `b`. -/
def sq (x : Stack nb m n) (b : Fin nb) (i : Fin m) : EReal := ∑ k : Fin n, x (ix3 b i k) * x (ix3 b i k)

/-- The inner product of rows `i` and `j` of matrix `b`. -/
def gram (x : Stack nb m n) (b : Fin nb) (i j : Fin m) : EReal := ∑ k : Fin n, x (ix3 b i k) * x (ix3 b j k)

/-- The factor of the Gram term: the single-precision number `2.0`. -/
def two : EReal := Ideal.ofBits .f32 0x40000000#32

/-- The scale inside the exponential: the single-precision number `-1/1024`. -/
def scale : EReal := Ideal.ofBits .f32 0xBA800000#32

/-- `‖row i‖² + ‖row j‖² - 2 · ⟨row i, row j⟩`. -/
def dist (x : Stack nb m n) (b : Fin nb) (i j : Fin m) : EReal := (sq x b i + sq x b j) - two * gram x b i j

/-- The exponential of the scaled distance, the distance first cut off below at zero. -/
def clamped (x : Stack nb m n) (b : Fin nb) (i j : Fin m) : EReal := Ideal.exp (scale * max (dist x b i j) 0)

/-- The exponential of the scaled distance. -/
def plain (x : Stack nb m n) (b : Fin nb) (i j : Fin m) : EReal := Ideal.exp (scale * dist x b i j)

/-- The value at `(b, i, j)` depends on matrix `b` only: two stacks, one of which holds at `B` the matrix the other
    holds at `b`, give the same value there. -/
theorem clamped_congr {nb' : ℕ} (x : Stack nb m n) (X : Stack nb' m n) (b : Fin nb) (B : Fin nb')
    (h : ∀ (i : Fin m) (k : Fin n), x (ix3 b i k) = X (ix3 B i k)) (i j : Fin m) :
    clamped x b i j = clamped X B i j := by
  unfold clamped dist sq gram
  simp only [h]

/-- The pattern of `2.0` denotes the real number two. -/
theorem two_eq : two = ((2 : ℝ) : EReal) := by
  unfold two
  simp [Ideal.ofBits, Ideal.ieee, -EReal.coe_mul]; norm_num

/-- Expanding the square under the sum: `∑ a² + ∑ b² - 2 ∑ a b = ∑ (a - b)²`. -/
theorem sum_sq_sub (a b : Fin n → ℝ) :
    (∑ k, a k * a k + ∑ k, b k * b k) - 2 * ∑ k, a k * b k = ∑ k, (a k - b k) * (a k - b k) := by
  rw [Finset.mul_sum, ← Finset.sum_add_distrib, ← Finset.sum_sub_distrib]
  exact Finset.sum_congr rfl fun k _ => by ring

/-- On a stack of real numbers the distance is the real sum of the squared differences. -/
theorem dist_of_real (x : Stack nb m n) (r : (⟨3, ![nb, m, n]⟩ : Shape).Idx → ℝ) (hx : ∀ q, x q = (r q : EReal))
    (b : Fin nb) (i j : Fin m) :
    dist x b i j = ((∑ k : Fin n, (r (ix3 b i k) - r (ix3 b j k)) * (r (ix3 b i k) - r (ix3 b j k)) : ℝ) : EReal) := by
  unfold dist sq gram
  rw [RealSums.sum_mul_of_real _ _ (fun k => r (ix3 b i k)) (fun k => r (ix3 b i k)) (fun _ => hx _) (fun _ => hx _),
    RealSums.sum_mul_of_real _ _ (fun k => r (ix3 b j k)) (fun k => r (ix3 b j k)) (fun _ => hx _) (fun _ => hx _),
    RealSums.sum_mul_of_real _ _ (fun k => r (ix3 b i k)) (fun k => r (ix3 b j k)) (fun _ => hx _) (fun _ => hx _),
    two_eq, ← EReal.coe_add, ← EReal.coe_mul, ← EReal.coe_sub, sum_sq_sub]

/-- On a stack of real numbers the distance is never negative. -/
theorem dist_nonneg (x : Stack nb m n) (hx : ∀ q, ∃ r : ℝ, x q = (r : EReal)) (b : Fin nb) (i j : Fin m) :
    0 ≤ dist x b i j := by
  choose r hr using hx
  rw [dist_of_real x r hr]
  exact EReal.coe_nonneg.2 (Finset.sum_nonneg fun k _ => mul_self_nonneg _)

/-- On a stack of real numbers cutting the distance off at zero changes nothing. -/
theorem clamp_idle (x : Stack nb m n) (hx : ∀ q, ∃ r : ℝ, x q = (r : EReal)) (b : Fin nb) (i j : Fin m) :
    clamped x b i j = plain x b i j := by
  unfold clamped plain
  rw [max_eq_left (dist_nonneg x hx b i j)]

end PairDist

end
-- ==== Proof.RefDist.lean ====
/-
  The reference program, entry by entry.

  The reference squares the input, sums each row (from zero), forms the batched product of the input with itself
  contracting the last axis of both operands, spreads the row sums along the rows and along the columns of a
  `[64, 512, 512]` array, adds the two, subtracts twice the product, scales and exponentiates.  Read at the entry
  `(b, i, j)` this is `exp (s · ((sq b i + sq b j) - 2 · gram b i j))`: the function `PairDist.plain` of the input.
-/
import proofs.«113839_j2396591751300_2_alg».proof.Proof.Gen.ReferenceIdeal.Read
import proofs.«113839_j2396591751300_2_alg».proof.Proof.PairDist

noncomputable section

namespace Cert.ReferenceIdeal.RefDist

open Cert.ReferenceIdeal Cert.ReferenceIdeal.Read Idealize.ShloMosaic Idealize.ShloMosaic.ValueIdx

/-- Row `i` of matrix `b`, as the row sum spread along the rows reads it. -/
theorem row_idx (b : Fin 64) (i j : Fin 512) (k : Fin 1024) :
    idx_main_v1 (idx_main_v3 (idx_main_v5 (ix3 b i j))) k = ix3 b i k :=
  funext fun a => Fin.ext (by match a with | ⟨0, _⟩ => rfl | ⟨1, _⟩ => rfl | ⟨2, _⟩ => rfl)

/-- Row `j` of matrix `b`, as the row sum spread along the columns reads it. -/
theorem col_idx (b : Fin 64) (i j : Fin 512) (k : Fin 1024) :
    idx_main_v1 (idx_main_v4 (idx_main_v6 (ix3 b i j))) k = ix3 b j k :=
  funext fun a => Fin.ext (by match a with | ⟨0, _⟩ => rfl | ⟨1, _⟩ => rfl | ⟨2, _⟩ => rfl)

/-- The product's left factor at `(b, i, j)` runs over row `i`. -/
theorem left_idx (b : Fin 64) (i j : Fin 512) (k : Fin 1024) : lidx_main_v2 (ix3 b i j) k = ix3 b i k :=
  funext fun a => Fin.ext (by match a with | ⟨0, _⟩ => rfl | ⟨1, _⟩ => rfl | ⟨2, _⟩ => rfl)

/-- The product's right factor at `(b, i, j)` runs over row `j`. -/
theorem right_idx (b : Fin 64) (i j : Fin 512) (k : Fin 1024) : ridx_main_v2 (ix3 b i j) k = ix3 b j k :=
  funext fun a => Fin.ext (by match a with | ⟨0, _⟩ => rfl | ⟨1, _⟩ => rfl | ⟨2, _⟩ => rfl)

/-- The reference's result at `(b, i, j)` is the exponential of the scaled distance between rows `i` and `j`. -/
theorem entry (x : PairDist.Stack 64 512 1024) (b : Fin 64) (i j : Fin 512) :
    val_main_v13 (F := Ideal) x (ix3 b i j) = PairDist.plain x b i j := by
  rw [val_main_v13_apply, val_main_v12_apply, val_main_v11_apply, val_main_cst_1_apply, val_main_v10_apply,
    val_main_v7_apply, val_main_v5_apply, val_main_v3_apply, val_main_v1_apply, val_main_v6_apply, val_main_v4_apply,
    val_main_v1_apply, val_main_v9_apply, val_main_v8_apply, val_main_cst_0_apply, val_main_v2_apply, val_main_cst_apply]
  simp only [row_idx, col_idx, left_idx, right_idx, val_main_v0_apply, Ideal.hostUnary_exp_def, Ideal.mulf_def,
    Ideal.subf_def, Ideal.addf_def, Ideal.ofBits_def, Ideal.ofBits_zero_f32, zero_add]
  rfl

/-- The reference's result is `PairDist.plain` of the input, at every index. -/
theorem result (x : PairDist.Stack 64 512 1024) :
    val_main_v13 (F := Ideal) x = fun q => PairDist.plain x (q 0) (q 1) (q 2) := by
  funext q
  exact (congrArg (val_main_v13 (F := Ideal) x) (eq_ix3 q)).trans (entry x (q 0) (q 1) (q 2))

end Cert.ReferenceIdeal.RefDist

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.BodyDist.lean ====
/-
  What the kernel body computes from one block, entry by entry.

  The body loads a block `x0` of two matrices (`[2, 512, 1024]`), squares it and sums each row into a `[2, 512]` array,
  which it lays out as a column `[2, 512, 1]`; it multiplies the block with itself, matrix by matrix, contracting the
  last axis of both operands (after a change of format, which is the identity on the extended reals); it spreads the
  column along the rows, and its transpose `[2, 1, 512]` along the columns, of a `[2, 512, 512]` array; and it stores
  `exp (s · max ((sq + sqᵀ) - 2 · product) 0)`.  Read at the entry `(b, i, j)` that is `PairDist.clamped x0 b i j`:
  the column holds the squared norms of the rows, the product the inner products of pairs of rows.
-/
import proofs.«113839_j2396591751300_2_alg».proof.Proof.Gen.KernelIdeal.Skeleton
import proofs.«113839_j2396591751300_2_alg».proof.Proof.PairDist
import proofs.«113839_j2396591751300_2_alg».proof.Proof.LibLayout
import Idealize.ShloMosaic.Lib.ValueLayout
import Idealize.ShloMosaic.Lib.ValueIdx
import Idealize.ShloMosaic.PureOps.Ideal.Laws

noncomputable section

namespace Cert.KernelIdeal.BodyDist

open Cert.KernelIdeal Cert.KernelIdeal.Gen Idealize.ShloMosaic Idealize.ShloMosaic.ValueIdx

/-! ## The squared norms of the rows, as a column -/

/-- The column `[2, 512, 1]` of row sums of the squared block. -/
def sqCol (x0 : Vec Ideal S2x512x1024 .f32) : FVec Ideal S2x512x1 .f32 :=
  shapeCast S2x512x1 (multiReduction .add [2] S2x512 (mulf x0 x0) 0x00000000#32 reduces_S2x512x1024_S2x512 (.inl rfl) rfl)
    shapeCasts_S2x512_S2x512x1

/-- Its entry `(b, i, 0)` is the squared norm of row `i` of matrix `b`. -/
theorem sqCol_entry (x0 : Vec Ideal S2x512x1024 .f32) (b : Fin 2) (i : Fin 512) (u : Fin 1) :
    sqCol x0 (ix3 b i u) = PairDist.sq x0 b i := by
  unfold sqCol
  refine (PushPull.Layout.cast_ab_ab1 _ shapeCasts_S2x512_S2x512x1 b i u).trans ?_
  exact PushPull.Layout.sum_abc_2 (mulf x0 x0) 0x00000000#32 reduces_S2x512x1024_S2x512 (.inl rfl) rfl b i

/-- Spread along the rows: the entry `(b, i, j)` is the squared norm of row `i`. -/
theorem rows_entry (x0 : Vec Ideal S2x512x1024 .f32) (b : Fin 2) (i j : Fin 512) :
    broadcastTo S2x512x512 (sqCol x0) broadcasts_S2x512x1_S2x512x512 (ix3 b i j) = PairDist.sq x0 b i :=
  (PushPull.Layout.bcast_ab1 (sqCol x0) broadcasts_S2x512x1_S2x512x512 b i j).trans (sqCol_entry x0 b i 0)

/-- The column transposed and spread along the columns: the entry `(b, i, j)` is the squared norm of row `j`. -/
theorem cols_entry (x0 : Vec Ideal S2x512x1024 .f32) (b : Fin 2) (i j : Fin 512) :
    broadcastTo S2x512x512 (transpose S2x1x512 [0, 2, 1] (sqCol x0) transposes_S2x512x1_p0_2_1_S2x1x512)
      broadcasts_S2x1x512_S2x512x512 (ix3 b i j) = PairDist.sq x0 b j :=
  (PushPull.Layout.bcast_a1b _ broadcasts_S2x1x512_S2x512x512 b i j).trans
    ((transpose_ix3_021_apply (sqCol x0) transposes_S2x512x1_p0_2_1_S2x1x512 b (0 : Fin 1) j).trans (sqCol_entry x0 b j 0))

/-! ## The product of the block with itself, matrix by matrix -/

theorem lhs_0 (q : S2x512x512.Idx) (c : dot_S2x512x1024_S2x512x1024_S2x512x512_2_2_1_1_0_0.contr.Idx) : (dot_S2x512x1024_S2x512x1024_S2x512x512_2_2_1_1_0_0.lhsIdx q c 0).val = (q 0).val := by
  unfold DotDims.lhsIdx
  rw [dif_pos (show (0 : Fin S2x512x1024.rank) ∈ dot_S2x512x1024_S2x512x1024_S2x512x512_2_2_1_1_0_0.lhsBatch by decide)]
  rfl
theorem lhs_1 (q : S2x512x512.Idx) (c : dot_S2x512x1024_S2x512x1024_S2x512x512_2_2_1_1_0_0.contr.Idx) : (dot_S2x512x1024_S2x512x1024_S2x512x512_2_2_1_1_0_0.lhsIdx q c 1).val = (q 1).val := by
  unfold DotDims.lhsIdx
  rw [dif_neg (show ¬(1 : Fin S2x512x1024.rank) ∈ dot_S2x512x1024_S2x512x1024_S2x512x512_2_2_1_1_0_0.lhsBatch by decide), dif_pos (show (1 : Fin S2x512x1024.rank) ∈ dot_S2x512x1024_S2x512x1024_S2x512x512_2_2_1_1_0_0.lhsNonContracting by decide)]
  rfl
theorem lhs_2 (q : S2x512x512.Idx) (c : dot_S2x512x1024_S2x512x1024_S2x512x512_2_2_1_1_0_0.contr.Idx) : (dot_S2x512x1024_S2x512x1024_S2x512x512_2_2_1_1_0_0.lhsIdx q c 2).val = (c ⟨0, by decide⟩).val :=
  dot_S2x512x1024_S2x512x1024_S2x512x512_2_2_1_1_0_0.lhsIdx_val_of_single rfl q c
theorem rhs_0 (q : S2x512x512.Idx) (c : dot_S2x512x1024_S2x512x1024_S2x512x512_2_2_1_1_0_0.contr.Idx) : (dot_S2x512x1024_S2x512x1024_S2x512x512_2_2_1_1_0_0.rhsIdx q c 0).val = (q 0).val := by
  unfold DotDims.rhsIdx
  rw [dif_pos (show (0 : Fin S2x512x1024.rank) ∈ dot_S2x512x1024_S2x512x1024_S2x512x512_2_2_1_1_0_0.rhsBatch by decide)]
  rfl
theorem rhs_1 (q : S2x512x512.Idx) (c : dot_S2x512x1024_S2x512x1024_S2x512x512_2_2_1_1_0_0.contr.Idx) : (dot_S2x512x1024_S2x512x1024_S2x512x512_2_2_1_1_0_0.rhsIdx q c 1).val = (q 2).val := by
  unfold DotDims.rhsIdx
  rw [dif_neg (show ¬(1 : Fin S2x512x1024.rank) ∈ dot_S2x512x1024_S2x512x1024_S2x512x512_2_2_1_1_0_0.rhsBatch by decide), dif_pos (show (1 : Fin S2x512x1024.rank) ∈ dot_S2x512x1024_S2x512x1024_S2x512x512_2_2_1_1_0_0.rhsNonContracting by decide)]
  rfl
theorem rhs_2 (q : S2x512x512.Idx) (c : dot_S2x512x1024_S2x512x1024_S2x512x512_2_2_1_1_0_0.contr.Idx) : (dot_S2x512x1024_S2x512x1024_S2x512x512_2_2_1_1_0_0.rhsIdx q c 2).val = (c ⟨0, by decide⟩).val :=
  dot_S2x512x1024_S2x512x1024_S2x512x512_2_2_1_1_0_0.rhsIdx_val_of_single rfl q c

/-- The product's entry `(b, i, j)` is the inner product of rows `i` and `j` of matrix `b`: the left operand is read
    along row `i`, the right along row `j`, and the change of format leaves each factor as it is. -/
theorem prod_entry (x0 : Vec Ideal S2x512x1024 .f32) (b : Fin 2) (i j : Fin 512) :
    matmul (F := Ideal) dot_S2x512x1024_S2x512x1024_S2x512x512_2_2_1_1_0_0 none (truncf .bf16 x0 bitsLt_bf16_f32) (truncf .bf16 x0 bitsLt_bf16_f32)
      (constant (F := Ideal) S2x512x512 .f32 0x00000000#32) (ix3 b i j) = PairDist.gram x0 b i j := by
  refine (Ideal.matmul_constant_zero_apply dot_S2x512x1024_S2x512x1024_S2x512x512_2_2_1_1_0_0 none _ _ (ix3 b i j)).trans ?_
  rw [← Equiv.sum_comp (ValueIdx.contrEquiv1 dot_S2x512x1024_S2x512x1024_S2x512x512_2_2_1_1_0_0 1024 rfl rfl).symm]
  unfold PairDist.gram
  refine Finset.sum_congr rfl fun k _ => ?_
  have hk := ValueIdx.contrEquiv1_symm_val dot_S2x512x1024_S2x512x1024_S2x512x512_2_2_1_1_0_0 1024 rfl rfl k
  have el : dot_S2x512x1024_S2x512x1024_S2x512x512_2_2_1_1_0_0.lhsIdx (ix3 b i j) ((ValueIdx.contrEquiv1 dot_S2x512x1024_S2x512x1024_S2x512x512_2_2_1_1_0_0 1024 rfl rfl).symm k) = ix3 b i k := funext fun a => Fin.ext (by
    match a with
    | ⟨0, _⟩ => exact lhs_0 _ _
    | ⟨1, _⟩ => exact lhs_1 _ _
    | ⟨2, _⟩ => exact (lhs_2 _ _).trans hk)
  have er : dot_S2x512x1024_S2x512x1024_S2x512x512_2_2_1_1_0_0.rhsIdx (ix3 b i j) ((ValueIdx.contrEquiv1 dot_S2x512x1024_S2x512x1024_S2x512x512_2_2_1_1_0_0 1024 rfl rfl).symm k) = ix3 b j k := funext fun a => Fin.ext (by
    match a with
    | ⟨0, _⟩ => exact rhs_0 _ _
    | ⟨1, _⟩ => exact rhs_1 _ _
    | ⟨2, _⟩ => exact (rhs_2 _ _).trans hk)
  show x0 _ * x0 _ = _
  rw [el, er]

/-! ## The stored value -/

/-- The body's stored value at `(b, i, j)`: the exponential of the scaled distance between rows `i` and `j` of the
    block's matrix `b`, the distance cut off below at zero. -/
theorem payload_entry (x0 : Vec Ideal S2x512x1024 .f32) (b : Fin 2) (i j : Fin 512) :
    k0_pay1 (F := Ideal) x0 (ix3 b i j) = PairDist.clamped x0 b i j := by
  unfold k0_pay1
  show Ideal.exp (Ideal.ofBits .f32 0xBA800000#32 * max
      ((broadcastTo S2x512x512 (sqCol x0) broadcasts_S2x512x1_S2x512x512 (ix3 b i j)
        + broadcastTo S2x512x512 (transpose S2x1x512 [0, 2, 1] (sqCol x0) transposes_S2x512x1_p0_2_1_S2x1x512)
            broadcasts_S2x1x512_S2x512x512 (ix3 b i j))
        - Ideal.ofBits .f32 0x40000000#32 * matmul dot_S2x512x1024_S2x512x1024_S2x512x512_2_2_1_1_0_0 none (truncf .bf16 x0 bitsLt_bf16_f32) (truncf .bf16 x0 bitsLt_bf16_f32)
            (constant S2x512x512 .f32 0x00000000#32) (ix3 b i j))
      (Ideal.ofBits .f32 0x00000000#32)) = _
  rw [rows_entry, cols_entry, prod_entry, Ideal.ofBits_zero_f32]
  rfl

end Cert.KernelIdeal.BodyDist

end
-- ==== Proof.Blocks.lean ====
/-
  From blocks to the whole array.

  The grid has 32 points.  At point `t` the input window holds matrices `2t` and `2t + 1` of the input (a block
  `[2, 512, 1024]` at block index `(t, 0, 0)`) and the output window the same two matrices of the output (a block
  `[2, 512, 512]` at block index `(t, 0, 0)`).  The value stored at `(p, i, j)` of the output block depends on matrix
  `p` of the input block only, which is matrix `2t + p` of the input; so what point `t` writes back is block `t` of
  ONE function of the whole input, `whole`: at `(b, i, j)` the exponential of the scaled, cut-off distance between rows
  `i` and `j` of matrix `b`.  Every matrix index `b < 64` lies in the block of point `b / 2`, so the blocks cover the
  output array, and the array ends holding `whole` of the input.
-/
import proofs.«113839_j2396591751300_2_alg».proof.Proof.Gen.KernelIdeal.Value
import proofs.«113839_j2396591751300_2_alg».proof.Proof.BodyDist
import proofs.«113839_j2396591751300_2_alg».proof.Proof.PairDist

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The whole output as one function of the whole input. -/
def whole (X : PairDist.Stack 64 512 1024) : S64x512x512.Idx → EReal :=
  fun q => PairDist.clamped X (q 0) (q 1) (q 2)

theorem origin : (![0, 0, 0] : Fin 3 → Nat) = fun _ => 0 := funext fun a => by fin_cases a <;> rfl

/-- The two windows move together along the first axis and stay at zero on the other two; there are 32 blocks. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 31 :=
  (by decide +kernel : ∀ t : Fin grid0.N, _)

/-- Every block index `(q, 0, 0)` with `q < 32` is some point's. -/
theorem idx_onto : ∀ q : Fin 32, ∃ t : Fin cfg0.N, win0_1.index t = ![q.val, 0, 0] :=
  (by decide +kernel : ∀ q : Fin 32, ∃ t : Fin grid0.N, win0_1.index t = ![q.val, 0, 0])

/-- The body's stored value at `(p, i, j)` of point `t`'s block is `whole` of the input at the block's image of
    `(p, i, j)`: matrix `p` of the input block is matrix `2t + p` of the input. -/
theorem block_entry (c : Dev nD) (t : Fin cfg0.N) (p : Fin 2) (i j : Fin 512) :
    k0_pay1 (F := Ideal) (iblk m c 0 t) (ix3 p i j)
      = whole (V m c main_arg0) (((cfg0.win 1).blk t).view.emb (ix3 p i j)) := by
  obtain ⟨e0, e1, e2, e3, e4, e5⟩ := idx_facts t
  refine (BodyDist.payload_entry (iblk m c 0 t) p i j).trans ?_
  have hb : win0_1.index t (0 : Fin 3) * 2 + p.val < 64 := by have := p.isLt; omega
  have hemb : ((cfg0.win 1).blk t).view.emb (ix3 p i j)
      = ix3 (⟨win0_1.index t (0 : Fin 3) * 2 + p.val, hb⟩ : Fin 64) i j := by
    funext a; apply Fin.ext
    match a with
    | ⟨0, _⟩ => show win0_1.index t (0 : Fin 3) * 2 + 1 * p.val = win0_1.index t (0 : Fin 3) * 2 + p.val; omega
    | ⟨1, _⟩ => show win0_1.index t (1 : Fin 3) * 512 + 1 * i.val = i.val; omega
    | ⟨2, _⟩ => show win0_1.index t (2 : Fin 3) * 512 + 1 * j.val = j.val; omega
  rw [hemb]
  show PairDist.clamped (iblk m c 0 t) p i j
    = PairDist.clamped (V m c main_arg0) (⟨win0_1.index t (0 : Fin 3) * 2 + p.val, hb⟩ : Fin 64) i j
  refine PairDist.clamped_congr (iblk m c 0 t) (V m c main_arg0) p ⟨win0_1.index t (0 : Fin 3) * 2 + p.val, hb⟩
    (fun i' k => ?_) i j
  show V m c main_arg0 (((cfg0.win 0).blk t).view.emb (ix3 p i' k))
    = V m c main_arg0 (ix3 (⟨win0_1.index t (0 : Fin 3) * 2 + p.val, hb⟩ : Fin 64) i' k)
  refine congrArg (V m c main_arg0) (funext fun a => Fin.ext ?_)
  match a with
  | ⟨0, _⟩ => show win0_0.index t (0 : Fin 3) * 2 + 1 * p.val = win0_1.index t (0 : Fin 3) * 2 + p.val; omega
  | ⟨1, _⟩ => show win0_0.index t (1 : Fin 3) * 512 + 1 * i'.val = i'.val; omega
  | ⟨2, _⟩ => show win0_0.index t (2 : Fin 3) * 1024 + 1 * k.val = k.val; omega

/-- What point `t` writes back is block `t` of `whole` of the input as the region finds it. -/
theorem flushed_eq (c : Dev nD) (t : Fin cfg0.N) :
    (dats m 0 c).flushed 1 t = ((cfg0.win 1).blk t).view.read (Elt Ideal) (whole (V m c main_arg0)) := by
  rw [Value.flushed1]
  unfold out0_1
  rw [View.canon_unit_zero origin]
  simp only [View.ld_unit_zero (S := S2x512x1024) origin]
  funext y
  obtain ⟨p, i, j, rfl⟩ : ∃ (p : Fin 2) (i j : Fin 512), y = ix3 p i j := ⟨y 0, y 1, y 2, eq_ix3 y⟩
  exact block_entry m c t p i j

/-- An index of the output is in point `t`'s block iff each coordinate is in the block's range on its axis. -/
theorem mem_blk (t : Fin cfg0.N) (q : S64x512x512.Idx) :
    q ∈ ((cfg0.win 1).blk t).view.set ↔ ∀ a : Fin 3, win0_1.index t a * S2x512x512.size a ≤ (q a).val
      ∧ (q a).val < win0_1.index t a * S2x512x512.size a + S2x512x512.size a := by
  show q ∈ ((View.whole main_v0).slice (win0_1.rect t)).set ↔ _
  rw [View.set_slice_whole, Rect.mem_set_unit]
  exact Iff.rfl

/-- Every index of the output lies in some point's block: matrix `b` in the block of point `b / 2`. -/
theorem cover (q : S64x512x512.Idx) :
    ∃ t : Fin cfg0.N, (cfg0.win 1).flush t = true ∧ q ∈ ((cfg0.win 1).blk t).view.set := by
  have h0 : (q 0).val < 64 := (q 0).isLt
  have h1 : (q 1).val < 512 := (q 1).isLt
  have h2 : (q 2).val < 512 := (q 2).isLt
  obtain ⟨t, ht⟩ := idx_onto ⟨(q 0).val / 2, by omega⟩
  have q0 : win0_1.index t (0 : Fin 3) = (q 0).val / 2 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 2 ≤ (q 0).val ∧ (q 0).val < win0_1.index t (0 : Fin 3) * 2 + 2; omega
  | ⟨1, _⟩ => show win0_1.index t (1 : Fin 3) * 512 ≤ (q 1).val ∧ (q 1).val < win0_1.index t (1 : Fin 3) * 512 + 512; omega
  | ⟨2, _⟩ => show win0_1.index t (2 : Fin 3) * 512 ≤ (q 2).val ∧ (q 2).val < win0_1.index t (2 : Fin 3) * 512 + 512; omega

/-- The output array after the run is `whole` of the input. -/
theorem final (c : Dev nD) : (dats m 0 c).arrAt 1 cfg0.N = whole (m ((c : Thread nD τ).loc main_arg0)) :=
  (dats m 0 c).arrAt_eq_of_cover 1 (whole (V m c main_arg0)) (fun t _ => flushed_eq m c t) cover

/-- The kernel's run: the output ends at `whole` of the input, the input unchanged. -/
theorem run : θ_run defs (onTc (τ := τ) (main (F := Ideal))) ⟨m, fun _ => 0, ρ⟩ fun r => ∀ c : Dev nD,
      r.2.mem ((c : Thread nD τ).loc main_v0) = whole (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Blocks

end
-- ==== Proof.FiniteEntries.lean ====
/-
  The precondition read back: every entry of the input is a real number.

  The precondition takes the absolute value `max v (-v)` of every entry `v`, compares it with `+∞` (strictly below),
  and takes the conjunction of all the comparisons.  The conjunction being one, each comparison is one, so
  `max v (-v) < ⊤`; then `v` is neither `⊤` nor `⊥` (whose negative is `⊤`), hence a real number.
-/
import proofs.«113839_j2396591751300_2_alg».proof.Pre_finite_inputs
import Idealize.ShloMosaic.Lib.ReduceAll
import Idealize.ShloMosaic.Lib.ValueIdx
import Idealize.ShloMosaic.PureOps.Ideal.Laws

noncomputable section

namespace Cert.Pre_finite_inputs.Entries

open Cert.Pre_finite_inputs Idealize.ShloMosaic

/-- A rank-zero array has one index. -/
instance : Subsingleton S_.Idx := ⟨fun _ _ => funext fun d => d.elim0⟩

/-- The pattern of `+∞` denotes the top of the extended reals. -/
theorem top_eq : Ideal.ofBits .f32 0x7F800000#32 = ⊤ := by simp [Ideal.ofBits, Ideal.ieee]

/-- An extended real whose absolute value is below `⊤` is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- Under the precondition every entry of the input is a real number. -/
theorem entries_real [Facts] (x : FVec Ideal S64x512x1024 .f32) (h : fn (F := Ideal) x = fun _ => 1#1)
    (q : S64x512x1024.Idx) : ∃ r : ℝ, x q = (r : EReal) := by
  have h0 := congrFun h ValueIdx.ix0
  dsimp only [fn] at h0
  have hq := Host.reduce_andi_all _ _ _ _ _ h0 q
  have hc : Ideal.cmp .olt (max (x q) (-(x q))) (Ideal.ofBits .f32 0x7F800000#32) = 1#1 := hq
  have hlt : max (x q) (-(x q)) < Ideal.ofBits .f32 0x7F800000#32 := by
    by_contra hn
    simp [Ideal.cmp, hn] at hc
  rw [top_eq] at hlt
  exact real_of_abs_lt_top _ hlt

end Cert.Pre_finite_inputs.Entries

end
-- ==== Proof.lean ====
/-
  The kernel and the reference compute the same `[64, 512, 512]` array from a finite input `x : [64, 512, 1024]`.

  Both form, for every matrix `b` and every pair of rows `i`, `j`, the number
  `d = (‖x[b,i,:]‖² + ‖x[b,j,:]‖²) - 2 · ⟨x[b,i,:], x[b,j,:]⟩` — the squared norms as row sums of the squared input,
  the inner products as a matrix product contracting the last axis of both operands — and return `exp (-d / 1024)`.
  The kernel works on two matrices per grid point and replaces `d` by `max d 0` before the exponential; the reference
  does neither.  Tiling changes nothing (a value depends on one matrix only, and the 32 blocks of two matrices cover
  the 64).  The maximum changes nothing either, because over the reals `d = ∑ₖ (x[b,i,k] - x[b,j,k])² ≥ 0`; this is
  where the precondition is used: on the extended reals the identity needs every entry of `x` to be a real number.

  `PairDist` holds the two functions and the law between them, `RefDist` reads the reference's operations as the
  plain one, `BodyDist` the kernel body's stored value as the cut-off one on a block, `Blocks` goes from blocks to
  the whole array, `FiniteEntries` reads the precondition back.  The kernel programs' frames and the reference's
  run are the generated modules'.
-/
import proofs.«113839_j2396591751300_2_alg».proof.Defs
import proofs.«113839_j2396591751300_2_alg».proof.Proof.Gen.Kernel
import proofs.«113839_j2396591751300_2_alg».proof.Proof.Gen.Kernel.Skeleton
import proofs.«113839_j2396591751300_2_alg».proof.Proof.Gen.Kernel.Launch
import proofs.«113839_j2396591751300_2_alg».proof.Proof.Gen.Kernel.Points
import proofs.«113839_j2396591751300_2_alg».proof.Proof.Gen.Kernel.Frame
import proofs.«113839_j2396591751300_2_alg».proof.Proof.Gen.KernelIdeal
import proofs.«113839_j2396591751300_2_alg».proof.Proof.Gen.KernelIdeal.Skeleton
import proofs.«113839_j2396591751300_2_alg».proof.Proof.Gen.KernelIdeal.Launch
import proofs.«113839_j2396591751300_2_alg».proof.Proof.Gen.KernelIdeal.Points
import proofs.«113839_j2396591751300_2_alg».proof.Proof.Gen.KernelIdeal.Frame
import proofs.«113839_j2396591751300_2_alg».proof.Proof.Gen.ReferenceIdeal
import proofs.«113839_j2396591751300_2_alg».proof.Proof.Gen.Pre_finite_inputs
import proofs.«113839_j2396591751300_2_alg».proof.Proof.Gen.KernelIdeal.Value
import proofs.«113839_j2396591751300_2_alg».proof.Proof.Gen.ReferenceIdeal.Run
import proofs.«113839_j2396591751300_2_alg».proof.Proof.Gen.ReferenceIdeal.Read
import proofs.«113839_j2396591751300_2_alg».proof.Proof.PairDist
import proofs.«113839_j2396591751300_2_alg».proof.Proof.RefDist
import proofs.«113839_j2396591751300_2_alg».proof.Proof.BodyDist
import proofs.«113839_j2396591751300_2_alg».proof.Proof.Blocks
import proofs.«113839_j2396591751300_2_alg».proof.Proof.FiniteEntries
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From inputs that agree and are finite, the kernel's output array and the reference's are the same function of
    the input: `exp (s · max d 0)` and `exp (s · d)` with `d ≥ 0`. -/
theorem algebraic : Cert.algebraic_KernelIdeal_ReferenceIdeal := by
  intro m ρ m' ρ' hpre hagree
  refine ⟨fun c => Cert.KernelIdeal.Blocks.whole (m ((c.tc : Thread Cert.KernelIdeal.nD Cert.KernelIdeal.τ).loc Cert.KernelIdeal.main_arg0)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefDist.result, hagree c]
  funext q
  exact (PairDist.clamp_idle _ (fun q' => Cert.Pre_finite_inputs.Entries.entries_real _ (hpre c) q') _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
